-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_4)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v3_2)) (v5 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_4) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_v3_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_v12) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S2048x4096 .f32) (main_arg3 : FVec F S2048 .f32) (main_arg4 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S1x256 : Shape := ⟨2, ![1, 256]⟩
abbrev S256x256 : Shape := ⟨2, ![256, 256]⟩
abbrev S8192x4096 : Shape := ⟨2, ![8192, 4096]⟩

abbrev nBuf : Space → Nat
  | .hbm => 14
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x4096, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg0 : BitVec 32 := BitVec.ofNat 32 (i 0).val
  let c256_i32 : BitVec 32 := 256#32
  let v25 : BitVec 32 := Scalar.muli arg0 c256_i32
  v25
def k0_off1 (i : grid0.Coords) : Fin 2 → Nat :=
  let c0_15 : Index := 0#32
  let arg0 : BitVec 32 := BitVec.ofNat 32 (i 0).val
  let c256_i32 : BitVec 32 := 256#32
  let v25 : BitVec 32 := Scalar.muli arg0 c256_i32
  let v26 : BitVec 32 := v25
  let v27 : Index := Scalar.indexCast v26
  ![0, v27.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  slices_S2048x4096_S2048x2048_0_0 : S2048x4096.Slices ![0, 0] S2048x2048
  slices_S2048x4096_S2048x2048_0_2048 : S2048x4096.Slices ![0, 2048] S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S256x256 : S1x256.Broadcasts S256x256
  h_S256x256 : 0 < S256x256.numel
  inb_S256x256_S256x256_0_0 : ∀ a, (![0, 0] : Fin 2 → Nat) a + S256x256.size a ≤ S256x256.size a
  concatenates_S8192x2048_S8192x2048_S8192x4096_d1 : Shape.Concatenates [S8192x2048, S8192x2048] S8192x4096 1
  dot_S256x2048_S256x2048_S256x256_1_1_0_0_n_n_wf : DotDims.WF S256x2048 S256x2048 S256x256 [1] [1] [0] [0] [] []
  hrank0 : 0 < grid0.rank
  k0_mult1_dvd : ∀ i : grid0.Coords, 128 ∣ (k0_mult1 i).toNat
  k0_off1_inb : ∀ i : grid0.Coords, ∀ a, (k0_off1 i) a + S256x256.size a ≤ S256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .f32 = 32 ∨ (Rect.block (s := S2048x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S8192x2048.size a
  hwx0_6 : ∀ i : grid0.Coords, EltTy.bits .f32 = 32 ∨ (Rect.block (s := S8192x2048) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S8192x2048.size a
  hwx0_7 : ∀ i : grid0.Coords, EltTy.bits .f32 = 32 ∨ (Rect.block (s := S8192x2048) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S8192x2048.size a
  hwx0_8 : ∀ i : grid0.Coords, EltTy.bits .f32 = 32 ∨ (Rect.block (s := S8192x2048) S256x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S8192x2048.size a
  hwx0_9 : ∀ i : grid0.Coords, EltTy.bits .f32 = 32 ∨ (Rect.block (s := S8192x2048) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S8192x2048.size a
  hwx0_10 : ∀ i : grid0.Coords, EltTy.bits .f32 = 32 ∨ (Rect.block (s := S8192x2048) S256x256.size (cc0_transform_10 i) (hinb0_10 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_3) S256x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_4) S256x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S8192x4096 : Shape := ⟨2, ![8192, 4096]⟩
abbrev S1x2048 : Shape := ⟨2, ![1, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x4096, .f32⟩
  | .hbm, ⟨3, _⟩ => ⟨S2048, .f32⟩
  | .hbm, ⟨4, _⟩ => ⟨S2048x2048, .f32⟩
  | .hbm, ⟨5, _⟩ => ⟨S8192x4096, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x4096_S2048x4096_S8192x2048_1_1_0_0_n_n_wf : DotDims.WF S8192x4096 S2048x4096 S8192x2048 [1] [1] [0] [0] [] []
  dot_S8192x2048_S2048x2048_S8192x2048_1_1_0_0_n_n_wf : DotDims.WF S8192x2048 S2048x2048 S8192x2048 [1] [1] [0] [0] [] []

variable [Facts₀]

def dot_S8192x4096_S2048x4096_S8192x2048_1_1_0_0_n_n : DotDims S8192x4096 S2048x4096 S8192x2048 where
  lhsContracting := [1]
  rhsContracting := [1]
  lhsNonContracting := [0]
  rhsNonContracting := [0]
  lhsBatch := []
  rhsBatch := []
  wf := dot_S8192x4096_S2048x4096_S8192x2048_1_1_0_0_n_n_wf
def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Pieces.lean ====
/-
  One grid point of the gated cell, read as values. At a point the body holds six blocks: 256 rows of the input and of
  the state (all 2048 columns each), 256 rows of each of the three weight matrices, and 256 entries of the bias. It
  stores five 256 x 256 tiles, each through one store that covers the whole tile: the pre-activation of the gate, the
  gate (the pre-activation clipped to [0, 1]), the candidate values (a hyperbolic tangent), the convex mix of the state
  tile and the candidate values, and that mix clipped below at zero. Here each stored tile is identified with the pure
  term of the six blocks that the body computes; the state tile entering the mix is the 256-column slice of the state
  block that starts at column 256 * (the point's first coordinate).
-/
import proofs.«170688_j13915694039466_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cell

open Cert.KernelIdeal Cert.KernelIdeal.Gen

variable {F : FTy → Type} [FloatOps F]

theorem hz : (![0, 0] : Fin 2 → Nat) = fun _ => 0 := funext fun a => by fin_cases a <;> rfl

/-- The columns of the state block that line up with the output tile: 256 columns starting at 256 * (first coordinate). -/
abbrev stateTile (i : grid0.Coords) (x1 : Vec F S256x2048 .f32) : Vec F S256x256 .f32 :=
  View.ld x1 (Rect.unit (s := S256x2048) (k0_off1 i) S256x256.size (k0_off1_inb i))

/-- The first tile stored is the gate's pre-activation: two matrix products added, plus the bias row. -/
theorem out6_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole)
    (x0 : Vec F S256x2048 .f32) (x1 : Vec F S256x2048 .f32) (x2 : Vec F S256x2048 .f32) (x3 : Vec F S256x2048 .f32) (x4 : Vec F S256x2048 .f32) (x5 : Vec F S1x256 .f32) :
    out0_A_6 c i arg2 harg2 arg3 harg3 arg4 harg4 arg5 harg5 arg6 harg6 arg7 harg7 arg8 harg8 arg9 harg9 arg10 harg10 arg11 harg11 arg12 harg12 x0 x1 x2 x3 x4 x5 = k0_pay2 x0 x1 x2 x3 x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, View.ld_unit_zero (S := S256x2048) hz, View.ld_unit_zero (S := S1x256) hz]

/-- The second tile is the gate: the pre-activation clipped to [0, 1]. -/
theorem out7_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole)
    (x0 : Vec F S256x2048 .f32) (x1 : Vec F S256x2048 .f32) (x2 : Vec F S256x2048 .f32) (x3 : Vec F S256x2048 .f32) (x4 : Vec F S256x2048 .f32) (x5 : Vec F S1x256 .f32) :
    out0_A_7 c i arg2 harg2 arg3 harg3 arg4 harg4 arg5 harg5 arg6 harg6 arg7 harg7 arg8 harg8 arg9 harg9 arg10 harg10 arg11 harg11 arg12 harg12 x0 x1 x2 x3 x4 x5 = k0_pay3 x0 x1 x2 x3 x5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, View.ld_unit_zero (S := S256x2048) hz, View.ld_unit_zero (S := S1x256) hz]

/-- The third tile is the candidate values: tanh of the input times the third weight block. -/
theorem out8_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole)
    (x0 : Vec F S256x2048 .f32) (x1 : Vec F S256x2048 .f32) (x2 : Vec F S256x2048 .f32) (x3 : Vec F S256x2048 .f32) (x4 : Vec F S256x2048 .f32) (x5 : Vec F S1x256 .f32) :
    out0_A_8 c i arg2 harg2 arg3 harg3 arg4 harg4 arg5 harg5 arg6 harg6 arg7 harg7 arg8 harg8 arg9 harg9 arg10 harg10 arg11 harg11 arg12 harg12 x0 x1 x2 x3 x4 x5 = k0_pay4 x0 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, View.ld_unit_zero (S := S256x2048) hz, View.ld_unit_zero (S := S1x256) hz]

/-- The fourth tile is the mix state * (1 - gate) + values * gate over the matching state columns. -/
theorem out9_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole)
    (x0 : Vec F S256x2048 .f32) (x1 : Vec F S256x2048 .f32) (x2 : Vec F S256x2048 .f32) (x3 : Vec F S256x2048 .f32) (x4 : Vec F S256x2048 .f32) (x5 : Vec F S1x256 .f32) :
    out0_A_9 c i arg2 harg2 arg3 harg3 arg4 harg4 arg5 harg5 arg6 harg6 arg7 harg7 arg8 harg8 arg9 harg9 arg10 harg10 arg11 harg11 arg12 harg12 x0 x1 x2 x3 x4 x5 = k0_pay5 x0 x1 x2 x3 x4 x5 (stateTile i x1) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, View.ld_unit_zero (S := S256x2048) hz, View.ld_unit_zero (S := S1x256) hz]
  rfl

/-- The fifth tile is the mix clipped below at zero. -/
theorem out10_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole)
    (x0 : Vec F S256x2048 .f32) (x1 : Vec F S256x2048 .f32) (x2 : Vec F S256x2048 .f32) (x3 : Vec F S256x2048 .f32) (x4 : Vec F S256x2048 .f32) (x5 : Vec F S1x256 .f32) :
    out0_A_10 c i arg2 harg2 arg3 harg3 arg4 harg4 arg5 harg5 arg6 harg6 arg7 harg7 arg8 harg8 arg9 harg9 arg10 harg10 arg11 harg11 arg12 harg12 x0 x1 x2 x3 x4 x5 = k0_pay6 x0 x1 x2 x3 x4 x5 (stateTile i x1) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, View.ld_unit_zero (S := S256x2048) hz, View.ld_unit_zero (S := S1x256) hz]
  rfl

end Cert.KernelIdeal.Cell

end
-- ==== Proof.GridFacts.lean ====
/-
  The grid is 8 x 32; a point's first coordinate picks 256 of the 2048 hidden units, its second 256 of the 8192 rows.
  Relative to the block index (B, Hq) of the output tile at a point: the input and state windows are on row block B;
  the three weight windows on row block Hq; the bias window on column block Hq; every output window on (B, Hq); the
  sliced state tile starts at column 256 Hq; B < 32 and Hq < 8; and every pair (B, Hq) in range is some point's. All of
  it is decided by running the index maps over the 256 points.
-/
import proofs.«170688_j13915694039466_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cell

open Cert.KernelIdeal Cert.KernelIdeal.Gen

/-- The index maps over the grid, relative to the output tile's. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (1 : Fin 2) ∧ win0_2.index t (1 : Fin 2) = 0
    ∧ win0_3.index t (0 : Fin 2) = win0_6.index t (1 : Fin 2) ∧ win0_3.index t (1 : Fin 2) = 0
    ∧ win0_4.index t (0 : Fin 2) = win0_6.index t (1 : Fin 2) ∧ win0_4.index t (1 : Fin 2) = 0
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_8.index t (0 : Fin 2) = win0_6.index t (0 : Fin 2) ∧ win0_8.index t (1 : Fin 2) = win0_6.index t (1 : Fin 2)
    ∧ win0_9.index t (0 : Fin 2) = win0_6.index t (0 : Fin 2) ∧ win0_9.index t (1 : Fin 2) = win0_6.index t (1 : Fin 2)
    ∧ win0_10.index t (0 : Fin 2) = win0_6.index t (0 : Fin 2) ∧ win0_10.index t (1 : Fin 2) = win0_6.index t (1 : Fin 2)
    ∧ k0_off1 (grid0.coords t) (0 : Fin 2) = 0 ∧ k0_off1 (grid0.coords t) (1 : Fin 2) = 256 * win0_6.index t (1 : Fin 2)
    ∧ win0_6.index t (0 : Fin 2) < 32 ∧ win0_6.index t (1 : Fin 2) < 8 :=
  (by decide +kernel : ∀ t : Fin grid0.N, _)

/-- Every (row block, column block) pair is the output tile of some point. -/
theorem idx_onto : ∀ (q0 : Fin 32) (q1 : Fin 8), ∃ t : Fin cfg0.N, win0_6.index t = ![q0.val, q1.val] :=
  (by decide +kernel : ∀ (q0 : Fin 32) (q1 : Fin 8), ∃ t : Fin grid0.N, win0_6.index t = ![q0.val, q1.val])

end Cert.KernelIdeal.Cell

end
-- ==== Proof.Spec.lean ====
/-
  The gated recurrent cell as five functions of its argument arrays, index by index, over the extended reals.
  With x the input [8192, 2048], h the state [8192, 2048], W the gate weights [2048, 4096] whose columns are the input
  columns followed by the state columns, b the gate bias [2048] and U the candidate weights [2048, 2048], at (r, j):

    pre-gate   p = sum_k x(r,k) W(j,k)  +  sum_k h(r,k) W(j, 2048 + k)  +  b(j)
    gate       g = min 1 (max 0 p)
    values     v = tanh (sum_k x(r,k) U(j,k))
    mix        y = h(r,j) (1 - g) + v g
    new state  z = max y 0

  The one law used against a single contraction over the 4096 joined columns is that a finite sum over 4096 indices is
  the sum over the first 2048 plus the sum over the last 2048: addition alone, valid for any extended reals.
-/
import Idealize.ShloMosaic.PureOps.Ideal
import Idealize.ShloMosaic.Lib.ValueIdx

noncomputable section

namespace Cert.GatedCell

open Idealize.ShloMosaic Idealize.ShloMosaic.ValueIdx

/-- rows x columns of the input, of the state and of each result. -/
abbrev SRows : Shape := ⟨2, ![8192, 2048]⟩
/-- the gate weights: one row per hidden unit, the input columns then the state columns. -/
abbrev SGate : Shape := ⟨2, ![2048, 4096]⟩
/-- the candidate weights. -/
abbrev SCand : Shape := ⟨2, ![2048, 2048]⟩
/-- the gate bias. -/
abbrev SBias : Shape := ⟨1, ![2048]⟩

/-- Column k of the input half of a gate-weight row. -/
abbrev colIn (k : Fin 2048) : Fin 4096 := ⟨k.val, by have := k.isLt; omega⟩
/-- Column k of the state half of a gate-weight row. -/
abbrev colSt (k : Fin 2048) : Fin 4096 := ⟨2048 + k.val, by have := k.isLt; omega⟩

/-- One (+0.0) and (1.0), as the programs spell them. -/
abbrev zeroW : Ideal .f32 := Ideal.ofBits .f32 0x00000000#32
abbrev oneW : Ideal .f32 := Ideal.ofBits .f32 0x3F800000#32

variable (x h : SRows.Idx → Ideal .f32) (W : SGate.Idx → Ideal .f32) (b : SBias.Idx → Ideal .f32) (U : SCand.Idx → Ideal .f32)

/-- The gate's pre-activation. -/
def preGate : SRows.Idx → Ideal .f32 := fun i =>
  (∑ k : Fin 2048, x (ix2 (i 0) k) * W (ix2 (i 1) (colIn k))) + (∑ k : Fin 2048, h (ix2 (i 0) k) * W (ix2 (i 1) (colSt k)))
    + b (ix1 (i 1))

/-- The gate: the pre-activation clipped to [0, 1]. -/
def gate : SRows.Idx → Ideal .f32 := fun i => min oneW (max zeroW (preGate x h W b i))

/-- The candidate values. -/
def values : SRows.Idx → Ideal .f32 := fun i => Ideal.tanh (∑ k : Fin 2048, x (ix2 (i 0) k) * U (ix2 (i 1) k))

/-- The convex mix of the old state and the candidate values. -/
def mix : SRows.Idx → Ideal .f32 := fun i => h i * (oneW - gate x h W b i) + values x U i * gate x h W b i

/-- The new state: the mix clipped below at zero. -/
def newState : SRows.Idx → Ideal .f32 := fun i => max (mix x h W b U i) zeroW

/-- A sum over 4096 indices is the sum over its first 2048 plus the sum over its last 2048. -/
theorem sum_halves {M : Type*} [AddCommMonoid M] (f : Fin 4096 → M) :
    ∑ k : Fin 4096, f k = (∑ k : Fin 2048, f (colIn k)) + ∑ k : Fin 2048, f (colSt k) :=
  Fin.sum_univ_add (a := 2048) (b := 2048) f

end Cert.GatedCell

end
-- ==== Proof.Blocks.lean ====
/-
  Where a grid point's blocks sit in the argument arrays. The grid is 8 x 32: its first coordinate picks 256 of the 2048
  hidden units, its second 256 of the 8192 rows. Write (B, Hq) for the block index of the output tile at a point (row
  block, column block). The input and state blocks are rows 256 B ... 256 B + 255 (all columns); the three weight
  blocks are rows 256 Hq ... of their matrices; the bias block is entries 256 Hq ... of the bias row; and the sliced
  state tile starts at column 256 Hq. Before the grid starts the gate weights are cut into their input-column half and
  their state-column half, and the bias is reshaped to one row. All relations between the index maps are decided once
  over the 256 points.
-/
import proofs.«170688_j13915694039466_2_alg».proof.Proof.Gen.KernelIdeal.Frame
import Idealize.ShloMosaic.Lib.Pipeline.Value
import Idealize.ShloMosaic.Lib.Tactic
import proofs.«170688_j13915694039466_2_alg».proof.Proof.Pieces
import proofs.«170688_j13915694039466_2_alg».proof.Proof.GridFacts
import proofs.«170688_j13915694039466_2_alg».proof.Proof.Spec
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.Cell

open Cert.KernelIdeal Cert.KernelIdeal.Gen Idealize.ShloMosaic.ValueIdx Cert.GatedCell

variable {F : FTy → Type} [FloatOps F]
variable (m : (ℓ : Loc nD τ sig) → Buf (Elt F) ℓ)

/-- The input-column half of the gate weights, as the grid finds it. -/
theorem V_gateIn (c : Dev nD) : V m c main_v0
    = extractStridedSlice S2048x2048 ![0, 0] (m ((c : Thread nD τ).loc main_arg2)) slices_S2048x4096_S2048x2048_0_0 := by
  show StableHlo.after hostOps0 (fun b => m (c, b)) (Proc.devRef .tc main_v0) = _
  after_results

/-- The state-column half of the gate weights. -/
theorem V_gateSt (c : Dev nD) : V m c main_v1
    = extractStridedSlice S2048x2048 ![0, 2048] (m ((c : Thread nD τ).loc main_arg2)) slices_S2048x4096_S2048x2048_0_2048 := by
  show StableHlo.after hostOps0 (fun b => m (c, b)) (Proc.devRef .tc main_v1) = _
  after_results

/-- The bias as one row. -/
theorem V_biasRow (c : Dev nD) : V m c main_v2
    = shapeCast S1x2048 (m ((c : Thread nD τ).loc main_arg3)) shapeCasts_S2048_S1x2048 := by
  show StableHlo.after hostOps0 (fun b => m (c, b)) (Proc.devRef .tc main_v2) = _
  after_results
  rfl

/-- An entry of the input block at a point is the entry of the input array 256 B rows further down. -/
theorem inBlock_apply (c : Dev nD) (t : Fin cfg0.N) (y : S256x2048.Idx) (k : S8192x2048.Idx)
    (hk0 : (k 0).val = win0_6.index t (0 : Fin 2) * 256 + (y 0).val) (hk1 : (k 1).val = (y 1).val) :
    (iblk m c 0 t : Vec F S256x2048 .f32) y = (m (((c : Thread nD τ).loc main_arg0)) : S8192x2048.Idx → Elt F .f32) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * (y 0).val = (k 0).val; rw [e0, hk0]; omega
  | ⟨1, _⟩ => show win0_0.index t (1 : Fin 2) * 2048 + 1 * (y 1).val = (k 1).val; rw [e1, hk1]; omega

/-- The same for the state block. -/
theorem stBlock_apply (c : Dev nD) (t : Fin cfg0.N) (y : S256x2048.Idx) (k : S8192x2048.Idx)
    (hk0 : (k 0).val = win0_6.index t (0 : Fin 2) * 256 + (y 0).val) (hk1 : (k 1).val = (y 1).val) :
    (iblk m c 1 t : Vec F S256x2048 .f32) y = (m (((c : Thread nD τ).loc main_arg1)) : S8192x2048.Idx → Elt F .f32) k := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * (y 0).val = (k 0).val; rw [e0, hk0]; omega
  | ⟨1, _⟩ => show win0_1.index t (1 : Fin 2) * 2048 + 1 * (y 1).val = (k 1).val; rw [e1, hk1]; omega

/-- An entry of the first gate-weight block is an entry of the input half of W, 256 Hq rows further down. -/
theorem gateInBlock_apply (c : Dev nD) (t : Fin cfg0.N) (q : Fin 256) (k : Fin 2048) (J : Fin 2048)
    (hJ : J.val = win0_6.index t (1 : Fin 2) * 256 + q.val) :
    (iblk m c 2 t : Vec F S256x2048 .f32) (ix2 (n0 := 256) (n1 := 2048) q k)
      = (m (((c : Thread nD τ).loc main_arg2)) : S2048x4096.Idx → Elt F .f32) (ix2 (n0 := 2048) (n1 := 4096) J (colIn k)) := by
  obtain ⟨-, -, -, -, e0, e1, -⟩ := idx_facts t
  unfold iblk
  rw [View.read_apply]
  show V m c main_v0 _ = _
  rw [V_gateIn]
  refine extractStridedSlice_apply _ _ _ _ _ (fun a => ?_)
  match a with
  | ⟨0, _⟩ => show J.val = 0 + (win0_2.index t (0 : Fin 2) * 256 + 1 * q.val); rw [e0, hJ]; omega
  | ⟨1, _⟩ => show k.val = 0 + (win0_2.index t (1 : Fin 2) * 2048 + 1 * k.val); rw [e1]; omega

/-- An entry of the second gate-weight block is an entry of the state half of W. -/
theorem gateStBlock_apply (c : Dev nD) (t : Fin cfg0.N) (q : Fin 256) (k : Fin 2048) (J : Fin 2048)
    (hJ : J.val = win0_6.index t (1 : Fin 2) * 256 + q.val) :
    (iblk m c 3 t : Vec F S256x2048 .f32) (ix2 (n0 := 256) (n1 := 2048) q k)
      = (m (((c : Thread nD τ).loc main_arg2)) : S2048x4096.Idx → Elt F .f32) (ix2 (n0 := 2048) (n1 := 4096) J (colSt k)) := by
  obtain ⟨-, -, -, -, -, -, e0, e1, -⟩ := idx_facts t
  unfold iblk
  rw [View.read_apply]
  show V m c main_v1 _ = _
  rw [V_gateSt]
  refine extractStridedSlice_apply _ _ _ _ _ (fun a => ?_)
  match a with
  | ⟨0, _⟩ => show J.val = 0 + (win0_3.index t (0 : Fin 2) * 256 + 1 * q.val); rw [e0, hJ]; omega
  | ⟨1, _⟩ => show 2048 + k.val = 2048 + (win0_3.index t (1 : Fin 2) * 2048 + 1 * k.val); rw [e1]; omega

/-- An entry of the candidate-weight block is an entry of U, 256 Hq rows further down. -/
theorem candBlock_apply (c : Dev nD) (t : Fin cfg0.N) (q : Fin 256) (k : Fin 2048) (J : Fin 2048)
    (hJ : J.val = win0_6.index t (1 : Fin 2) * 256 + q.val) :
    (iblk m c 4 t : Vec F S256x2048 .f32) (ix2 (n0 := 256) (n1 := 2048) q k)
      = (m (((c : Thread nD τ).loc main_arg4)) : S2048x2048.Idx → Elt F .f32) (ix2 (n0 := 2048) (n1 := 2048) J k) := by
  obtain ⟨-, -, -, -, -, -, -, -, e0, e1, -⟩ := idx_facts t
  unfold iblk
  rw [View.read_apply]
  show V m c main_arg4 _ = _
  rw [V_main_arg4]
  congr 1
  funext a
  apply Fin.ext
  match a with
  | ⟨0, _⟩ => show win0_4.index t (0 : Fin 2) * 256 + 1 * q.val = J.val; rw [e0, hJ]; omega
  | ⟨1, _⟩ => show win0_4.index t (1 : Fin 2) * 2048 + 1 * k.val = k.val; rw [e1]; omega

/-- An entry of the bias block is an entry of the bias, 256 Hq further on. -/
theorem biasBlock_apply (c : Dev nD) (t : Fin cfg0.N) (q : Fin 256) (J : Fin 2048)
    (hJ : J.val = win0_6.index t (1 : Fin 2) * 256 + q.val) :
    (iblk m c 5 t : Vec F S1x256 .f32) (ix2 (n0 := 1) (n1 := 256) 0 q)
      = (m (((c : Thread nD τ).loc main_arg3)) : S2048.Idx → Elt F .f32) (ix1 (n := 2048) J) := by
  obtain ⟨-, -, -, -, -, -, -, -, -, -, e0, e1, -⟩ := idx_facts t
  unfold iblk
  rw [View.read_apply]
  show V m c main_v2 _ = _
  rw [V_biasRow]
  refine shapeCast_apply _ _ _ _ ?_
  refine (Shape.rowMajor_val_one (d := ![2048]) (ix1 (n := 2048) J)).trans ?_
  refine Eq.trans ?_ (Shape.rowMajor_val_two (d := ![1, 2048]) (((cfg0.win 5).blk t).view.emb (ix2 (n0 := 1) (n1 := 256) 0 q))).symm
  show J.val = (win0_5.index t (0 : Fin 2) * 1 + 1 * 0) * 2048 + (win0_5.index t (1 : Fin 2) * 256 + 1 * q.val)
  rw [e0, e1, hJ]
  omega

/-- An entry of the sliced state tile is the state entry in the output tile's own row and column. -/
theorem stateTile_apply (c : Dev nD) (t : Fin cfg0.N) (p q : Fin 256) (R : Fin 8192) (J : Fin 2048)
    (hR : R.val = win0_6.index t (0 : Fin 2) * 256 + p.val) (hJ : J.val = win0_6.index t (1 : Fin 2) * 256 + q.val) :
    stateTile (grid0.coords t) (iblk m c 1 t : Vec F S256x2048 .f32) (ix2 (n0 := 256) (n1 := 256) p q)
      = (m (((c : Thread nD τ).loc main_arg1)) : S8192x2048.Idx → Elt F .f32) (ix2 (n0 := 8192) (n1 := 2048) R J) := by
  obtain ⟨-, -, -, -, -, -, -, -, -, -, -, -, -, -, -, -, -, -, -, -, o0, o1, -⟩ := idx_facts t
  show (iblk m c 1 t : Vec F S256x2048 .f32) ((Rect.unit (s := S256x2048) (k0_off1 (grid0.coords t)) S256x256.size (k0_off1_inb (grid0.coords t))).emb (ix2 (n0 := 256) (n1 := 256) p q)) = _
  refine stBlock_apply m c t _ _ ?_ ?_
  · show R.val = win0_6.index t (0 : Fin 2) * 256 + (k0_off1 (grid0.coords t) (0 : Fin 2) + 1 * p.val)
    rw [o0, hR]; omega
  · show J.val = k0_off1 (grid0.coords t) (1 : Fin 2) + 1 * q.val
    rw [o1, hJ]; omega

end Cert.KernelIdeal.Cell

end
-- ==== Proof.Payload.lean ====
/-
  The five stored tiles of one grid point, read at an entry (p, q) over the extended reals. A matrix product of the body
  contracts the LAST axis of both operands (a block times the transpose of a weight block) into a zero accumulator, so
  its (p, q) entry is the sum over k of A(p, k) B(q, k); the narrowing of the operands to 16-bit floats before the
  product is the identity on extended reals. The bias block is one row of 256 entries spread over the 256 rows.
-/
import proofs.«170688_j13915694039466_2_alg».proof.Proof.Pieces
import proofs.«170688_j13915694039466_2_alg».proof.Proof.Spec
import Idealize.ShloMosaic.Lib.ValueIdx
import Idealize.ShloMosaic.PureOps.Ideal.Laws

noncomputable section

open Idealize.ShloMosaic Idealize.ShloMosaic.TcCoe Idealize.SL.Sem

namespace Cert.KernelIdeal.Cell

open Cert.KernelIdeal Cert.KernelIdeal.Gen Idealize.ShloMosaic.ValueIdx Cert.GatedCell

theorem lhs_0 (i : S256x256.Idx) (q : dot_S256x2048_S256x2048_S256x256_1_1_0_0_n_n.contr.Idx) : (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide), dif_pos (show (0 : Fin S256x2048.rank) ∈ dot_S256x2048_S256x2048_S256x256_1_1_0_0_n_n.lhsNonContracting by decide)]
  rfl
theorem lhs_1 (i : S256x256.Idx) (q : dot_S256x2048_S256x2048_S256x256_1_1_0_0_n_n.contr.Idx) : (dot_S256x2048_S256x2048_S256x256_1_1_0_0_n_n.lhsIdx i q 1).val = (q ⟨0, by decide⟩).val :=
  dot_S256x2048_S256x2048_S256x256_1_1_0_0_n_n.lhsIdx_val_of_single rfl i q
theorem rhs_0 (i : S256x256.Idx) (q : dot_S256x2048_S256x2048_S256x256_1_1_0_0_n_n.contr.Idx) : (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide), dif_pos (show (0 : Fin S256x2048.rank) ∈ dot_S256x2048_S256x2048_S256x256_1_1_0_0_n_n.rhsNonContracting by decide)]
  rfl
theorem rhs_1 (i : S256x256.Idx) (q : dot_S256x2048_S256x2048_S256x256_1_1_0_0_n_n.contr.Idx) : (dot_S256x2048_S256x2048_S256x256_1_1_0_0_n_n.rhsIdx i q 1).val = (q ⟨0, by decide⟩).val :=
  dot_S256x2048_S256x2048_S256x256_1_1_0_0_n_n.rhsIdx_val_of_single rfl i q

/-- A block times a transposed weight block into the zero accumulator, at (p, q): the sum over k of A(p,k) B(q,k). -/
theorem mm_apply {φ₁ φ₂ : FTy} (A : FVec Ideal S256x2048 φ₁) (B : FVec Ideal S256x2048 φ₂) (p q : Fin 256) :
    matmul dot_S256x2048_S256x2048_S256x256_1_1_0_0_n_n none A B (constant (F := Ideal) S256x256 .f32 0x00000000#32) (ix2 (n0 := 256) (n1 := 256) p q)
      = ∑ k : Fin 2048, A (ix2 (n0 := 256) (n1 := 2048) p k) * B (ix2 (n0 := 256) (n1 := 2048) q k) := by
  simp only [matmul]
  rw [Ideal.matmul_constant_zero_apply, ← Equiv.sum_comp (ValueIdx.contrEquiv1 dot_S256x2048_S256x2048_S256x256_1_1_0_0_n_n 2048 rfl rfl).symm]
  refine Finset.sum_congr rfl fun k _ => ?_
  have hk := ValueIdx.contrEquiv1_symm_val dot_S256x2048_S256x2048_S256x256_1_1_0_0_n_n 2048 rfl rfl k
  have el : dot_S256x2048_S256x2048_S256x256_1_1_0_0_n_n.lhsIdx (ix2 (n0 := 256) (n1 := 256) p q) ((ValueIdx.contrEquiv1 dot_S256x2048_S256x2048_S256x256_1_1_0_0_n_n 2048 rfl rfl).symm k) = ix2 (n0 := 256) (n1 := 2048) p k := funext fun a => Fin.ext (by
    match a with
    | ⟨0, _⟩ => exact lhs_0 _ _
    | ⟨1, _⟩ => exact (lhs_1 _ _).trans hk)
  have er : dot_S256x2048_S256x2048_S256x256_1_1_0_0_n_n.rhsIdx (ix2 (n0 := 256) (n1 := 256) p q) ((ValueIdx.contrEquiv1 dot_S256x2048_S256x2048_S256x256_1_1_0_0_n_n 2048 rfl rfl).symm k) = ix2 (n0 := 256) (n1 := 2048) q k := funext fun a => Fin.ext (by
    match a with
    | ⟨0, _⟩ => exact rhs_0 _ _
    | ⟨1, _⟩ => exact (rhs_1 _ _).trans hk)
  rw [el, er]

/-- One row of 256 entries spread over 256 rows, at (p, q): the row's entry q. -/
theorem bias_apply (v : FVec Ideal S1x256 .f32) (p q : Fin 256) :
    broadcastTo S256x256 v broadcasts_S1x256_S256x256 (ix2 (n0 := 256) (n1 := 256) p q) = v (ix2 (n0 := 1) (n1 := 256) 0 q) :=
  broadcastTo_apply v broadcasts_S1x256_S256x256 _ (ix2 (n0 := 1) (n1 := 256) 0 q) (fun a => match a with
    | ⟨0, _⟩ => by show 0 = if (1 : Nat) = 1 then 0 else _; rw [if_pos rfl]
    | ⟨1, _⟩ => by show q.val = if (256 : Nat) = 1 then 0 else q.val; rw [if_neg (by decide)])

variable (x0 x1 x2 x3 x4 : Vec Ideal S256x2048 .f32) (x5 : Vec Ideal S1x256 .f32)

/-- The pre-gate tile at (p, q). -/
theorem preGate_tile (p q : Fin 256) :
    k0_pay2 (F := Ideal) x0 x1 x2 x3 x5 (ix2 (n0 := 256) (n1 := 256) p q)
      = (∑ k : Fin 2048, x0 (ix2 (n0 := 256) (n1 := 2048) p k) * x2 (ix2 (n0 := 256) (n1 := 2048) q k))
        + (∑ k : Fin 2048, x1 (ix2 (n0 := 256) (n1 := 2048) p k) * x3 (ix2 (n0 := 256) (n1 := 2048) q k))
        + x5 (ix2 (n0 := 1) (n1 := 256) 0 q) := by
  unfold k0_pay2 k0_pay1
  simp only [shapeCast_self]
  rw [addf_apply, addf_apply, mm_apply, mm_apply, bias_apply]
  rfl

/-- The gate tile at (p, q): the pre-gate entry clipped to [0, 1]. -/
theorem gate_tile (p q : Fin 256) :
    k0_pay3 (F := Ideal) x0 x1 x2 x3 x5 (ix2 (n0 := 256) (n1 := 256) p q)
      = min oneW (max zeroW (k0_pay2 (F := Ideal) x0 x1 x2 x3 x5 (ix2 (n0 := 256) (n1 := 256) p q))) := rfl

/-- The candidate-value tile at (p, q). -/
theorem values_tile (p q : Fin 256) :
    k0_pay4 (F := Ideal) x0 x4 (ix2 (n0 := 256) (n1 := 256) p q)
      = Ideal.tanh (∑ k : Fin 2048, x0 (ix2 (n0 := 256) (n1 := 2048) p k) * x4 (ix2 (n0 := 256) (n1 := 2048) q k)) := by
  unfold k0_pay4 k0_pay1
  show Ideal.tanh (matmul (F := Ideal) dot_S256x2048_S256x2048_S256x256_1_1_0_0_n_n none _ _ _ (ix2 (n0 := 256) (n1 := 256) p q)) = _
  rw [mm_apply]
  rfl

/-- The mix tile at (p, q), over the state tile T that lines up with the output columns. -/
theorem mix_tile (T : Vec Ideal S256x256 .f32) (p q : Fin 256) :
    k0_pay5 (F := Ideal) x0 x1 x2 x3 x4 x5 T (ix2 (n0 := 256) (n1 := 256) p q)
      = T (ix2 (n0 := 256) (n1 := 256) p q) * (oneW - k0_pay3 (F := Ideal) x0 x1 x2 x3 x5 (ix2 (n0 := 256) (n1 := 256) p q))
        + k0_pay4 (F := Ideal) x0 x4 (ix2 (n0 := 256) (n1 := 256) p q) * k0_pay3 (F := Ideal) x0 x1 x2 x3 x5 (ix2 (n0 := 256) (n1 := 256) p q) := rfl

/-- The new-state tile at (p, q): the mix entry clipped below at zero. -/
theorem newState_tile (T : Vec Ideal S256x256 .f32) (p q : Fin 256) :
    k0_pay6 (F := Ideal) x0 x1 x2 x3 x4 x5 T (ix2 (n0 := 256) (n1 := 256) p q)
      = max (k0_pay5 (F := Ideal) x0 x1 x2 x3 x4 x5 T (ix2 (n0 := 256) (n1 := 256) p q)) zeroW := rfl

end Cert.KernelIdeal.Cell

end
-- ==== Proof.TileSpec.lean ====
/-
  One tile entry against the whole-array functions. Suppose the six blocks a grid point holds are rows of the argument
  arrays: row p of the input and state blocks is row R of x and of h, row q of the two gate-weight blocks is the input
  half and the state half of row J of W, row q of the candidate-weight block is row J of U, entry q of the bias block is
  b(J), and entry (p, q) of the state tile is h(R, J). Then entry (p, q) of each of the five stored tiles is the
  specification's function at (R, J): the two contractions of the tile are term for term the two half-contractions.
-/
import proofs.«170688_j13915694039466_2_alg».proof.Proof.Payload
import proofs.«170688_j13915694039466_2_alg».proof.Proof.Spec

noncomputable section

open Idealize.ShloMosaic Idealize.ShloMosaic.TcCoe Idealize.SL.Sem

namespace Cert.KernelIdeal.Cell

open Cert.KernelIdeal Cert.KernelIdeal.Gen Idealize.ShloMosaic.ValueIdx Cert.GatedCell

variable (x h : SRows.Idx → Ideal .f32) (W : SGate.Idx → Ideal .f32) (b : SBias.Idx → Ideal .f32) (U : SCand.Idx → Ideal .f32)
variable (X0 X1 X2 X3 X4 : Vec Ideal S256x2048 .f32) (X5 : Vec Ideal S1x256 .f32) (T : Vec Ideal S256x256 .f32)
variable (R : Fin 8192) (J : Fin 2048) (p q : Fin 256)

theorem preGate_block (h0 : ∀ k : Fin 2048, X0 (ix2 (n0 := 256) (n1 := 2048) p k) = x (ix2 (n0 := 8192) (n1 := 2048) R k))
    (h1 : ∀ k : Fin 2048, X1 (ix2 (n0 := 256) (n1 := 2048) p k) = h (ix2 (n0 := 8192) (n1 := 2048) R k))
    (h2 : ∀ k : Fin 2048, X2 (ix2 (n0 := 256) (n1 := 2048) q k) = W (ix2 (n0 := 2048) (n1 := 4096) J (colIn k)))
    (h3 : ∀ k : Fin 2048, X3 (ix2 (n0 := 256) (n1 := 2048) q k) = W (ix2 (n0 := 2048) (n1 := 4096) J (colSt k)))
    (h5 : X5 (ix2 (n0 := 1) (n1 := 256) 0 q) = b (ix1 (n := 2048) J)) :
    k0_pay2 (F := Ideal) X0 X1 X2 X3 X5 (ix2 (n0 := 256) (n1 := 256) p q) = preGate x h W b (ix2 (n0 := 8192) (n1 := 2048) R J) := by
  rw [preGate_tile]
  unfold preGate
  simp only [h0, h1, h2, h3, h5]

theorem gate_block (h0 : ∀ k : Fin 2048, X0 (ix2 (n0 := 256) (n1 := 2048) p k) = x (ix2 (n0 := 8192) (n1 := 2048) R k))
    (h1 : ∀ k : Fin 2048, X1 (ix2 (n0 := 256) (n1 := 2048) p k) = h (ix2 (n0 := 8192) (n1 := 2048) R k))
    (h2 : ∀ k : Fin 2048, X2 (ix2 (n0 := 256) (n1 := 2048) q k) = W (ix2 (n0 := 2048) (n1 := 4096) J (colIn k)))
    (h3 : ∀ k : Fin 2048, X3 (ix2 (n0 := 256) (n1 := 2048) q k) = W (ix2 (n0 := 2048) (n1 := 4096) J (colSt k)))
    (h5 : X5 (ix2 (n0 := 1) (n1 := 256) 0 q) = b (ix1 (n := 2048) J)) :
    k0_pay3 (F := Ideal) X0 X1 X2 X3 X5 (ix2 (n0 := 256) (n1 := 256) p q) = gate x h W b (ix2 (n0 := 8192) (n1 := 2048) R J) := by
  rw [gate_tile, preGate_block x h W b X0 X1 X2 X3 X5 R J p q h0 h1 h2 h3 h5]
  rfl

theorem values_block (h0 : ∀ k : Fin 2048, X0 (ix2 (n0 := 256) (n1 := 2048) p k) = x (ix2 (n0 := 8192) (n1 := 2048) R k))
    (h4 : ∀ k : Fin 2048, X4 (ix2 (n0 := 256) (n1 := 2048) q k) = U (ix2 (n0 := 2048) (n1 := 2048) J k)) :
    k0_pay4 (F := Ideal) X0 X4 (ix2 (n0 := 256) (n1 := 256) p q) = values x U (ix2 (n0 := 8192) (n1 := 2048) R J) := by
  rw [values_tile]
  unfold values
  simp only [h0, h4]

theorem mix_block (h0 : ∀ k : Fin 2048, X0 (ix2 (n0 := 256) (n1 := 2048) p k) = x (ix2 (n0 := 8192) (n1 := 2048) R k))
    (h1 : ∀ k : Fin 2048, X1 (ix2 (n0 := 256) (n1 := 2048) p k) = h (ix2 (n0 := 8192) (n1 := 2048) R k))
    (h2 : ∀ k : Fin 2048, X2 (ix2 (n0 := 256) (n1 := 2048) q k) = W (ix2 (n0 := 2048) (n1 := 4096) J (colIn k)))
    (h3 : ∀ k : Fin 2048, X3 (ix2 (n0 := 256) (n1 := 2048) q k) = W (ix2 (n0 := 2048) (n1 := 4096) J (colSt k)))
    (h4 : ∀ k : Fin 2048, X4 (ix2 (n0 := 256) (n1 := 2048) q k) = U (ix2 (n0 := 2048) (n1 := 2048) J k))
    (h5 : X5 (ix2 (n0 := 1) (n1 := 256) 0 q) = b (ix1 (n := 2048) J))
    (hT : T (ix2 (n0 := 256) (n1 := 256) p q) = h (ix2 (n0 := 8192) (n1 := 2048) R J)) :
    k0_pay5 (F := Ideal) X0 X1 X2 X3 X4 X5 T (ix2 (n0 := 256) (n1 := 256) p q) = mix x h W b U (ix2 (n0 := 8192) (n1 := 2048) R J) := by
  rw [mix_tile, gate_block x h W b X0 X1 X2 X3 X5 R J p q h0 h1 h2 h3 h5, values_block x U X0 X4 R J p q h0 h4, hT]
  rfl

theorem newState_block (h0 : ∀ k : Fin 2048, X0 (ix2 (n0 := 256) (n1 := 2048) p k) = x (ix2 (n0 := 8192) (n1 := 2048) R k))
    (h1 : ∀ k : Fin 2048, X1 (ix2 (n0 := 256) (n1 := 2048) p k) = h (ix2 (n0 := 8192) (n1 := 2048) R k))
    (h2 : ∀ k : Fin 2048, X2 (ix2 (n0 := 256) (n1 := 2048) q k) = W (ix2 (n0 := 2048) (n1 := 4096) J (colIn k)))
    (h3 : ∀ k : Fin 2048, X3 (ix2 (n0 := 256) (n1 := 2048) q k) = W (ix2 (n0 := 2048) (n1 := 4096) J (colSt k)))
    (h4 : ∀ k : Fin 2048, X4 (ix2 (n0 := 256) (n1 := 2048) q k) = U (ix2 (n0 := 2048) (n1 := 2048) J k))
    (h5 : X5 (ix2 (n0 := 1) (n1 := 256) 0 q) = b (ix1 (n := 2048) J))
    (hT : T (ix2 (n0 := 256) (n1 := 256) p q) = h (ix2 (n0 := 8192) (n1 := 2048) R J)) :
    k0_pay6 (F := Ideal) X0 X1 X2 X3 X4 X5 T (ix2 (n0 := 256) (n1 := 256) p q) = newState x h W b U (ix2 (n0 := 8192) (n1 := 2048) R J) := by
  rw [newState_tile, mix_block x h W b U X0 X1 X2 X3 X4 X5 T R J p q h0 h1 h2 h3 h4 h5 hT]
  rfl

end Cert.KernelIdeal.Cell

end
-- ==== Proof.Flushed.lean ====
/-
  What each grid point writes back. At a point with output block index (B, Hq), entry (p, q) of each stored tile is the
  specification's function at row R = 256 B + p and column J = 256 Hq + q of the argument arrays: the point's blocks are
  exactly the rows R of x and h, the two halves of row J of W, row J of U and b(J), and the sliced state tile holds h(R, J).
  So the block a point writes through each of the five output windows is that block of one whole-array function.
-/
import proofs.«170688_j13915694039466_2_alg».proof.Proof.Gen.KernelIdeal.Frame
import Idealize.ShloMosaic.Lib.Pipeline.Value
import Idealize.ShloMosaic.Lib.Tactic
import proofs.«170688_j13915694039466_2_alg».proof.Proof.Blocks
import proofs.«170688_j13915694039466_2_alg».proof.Proof.TileSpec

noncomputable section

open Idealize.ShloMosaic Idealize.ShloMosaic.TcCoe Idealize.SL.Sem
open Idealize.ShloMosaic.Pipeline (Dat)

namespace Cert.KernelIdeal.Cell

open Cert.KernelIdeal Cert.KernelIdeal.Gen Idealize.ShloMosaic.ValueIdx Cert.GatedCell

variable (m : (ℓ : Loc nD τ sig) → Buf (Elt Ideal) ℓ)

/-- What point t writes back through output window 6 is block t of the gate's pre-activation of the argument arrays. -/
theorem flushed6_eq (c : Dev nD) (t : Fin cfg0.N) :
    (dats m 0 c).flushed 6 t = ((cfg0.win 6).blk t).view.read (Elt Ideal) (preGate (m ((c : Thread nD τ).loc main_arg0)) (m ((c : Thread nD τ).loc main_arg1)) (m ((c : Thread nD τ).loc main_arg2)) (m ((c : Thread nD τ).loc main_arg3))) := by
  show (cfg0.win 6).cut (grid0.coords t) ((dats m 0 c).after 6 t) = _
  rw [after0_6]
  unfold outsAt0
  dsimp only
  rw [out6_eq]
  funext y
  obtain ⟨p, q, rfl⟩ : ∃ (p q : Fin 256), y = ix2 p q := ⟨y 0, y 1, eq_ix2 y⟩
  show _ = preGate (m ((c : Thread nD τ).loc main_arg0)) (m ((c : Thread nD τ).loc main_arg1)) (m ((c : Thread nD τ).loc main_arg2)) (m ((c : Thread nD τ).loc main_arg3)) (((cfg0.win 6).blk t).view.emb (ix2 (n0 := 256) (n1 := 256) p q))
  obtain ⟨R, J, hRJ⟩ : ∃ (R : Fin 8192) (J : Fin 2048), ((cfg0.win 6).blk t).view.emb (ix2 (n0 := 256) (n1 := 256) p q) = ix2 R J :=
    ⟨_, _, eq_ix2 _⟩
  have hR : R.val = win0_6.index t (0 : Fin 2) * 256 + p.val := by
    have e : win0_6.index t (0 : Fin 2) * 256 + 1 * p.val = R.val := congrArg Fin.val (congrFun hRJ (0 : Fin 2))
    omega
  have hJ : J.val = win0_6.index t (1 : Fin 2) * 256 + q.val := by
    have e : win0_6.index t (1 : Fin 2) * 256 + 1 * q.val = J.val := congrArg Fin.val (congrFun hRJ (1 : Fin 2))
    omega
  rw [hRJ]
  have H0 : ∀ k : Fin 2048, (iblk m c 0 t : Vec Ideal S256x2048 .f32) (ix2 (n0 := 256) (n1 := 2048) p k) = (m ((c : Thread nD τ).loc main_arg0)) (ix2 (n0 := 8192) (n1 := 2048) R k) :=
    fun k => inBlock_apply m c t (ix2 (n0 := 256) (n1 := 2048) p k) (ix2 (n0 := 8192) (n1 := 2048) R k) hR rfl
  have H1 : ∀ k : Fin 2048, (iblk m c 1 t : Vec Ideal S256x2048 .f32) (ix2 (n0 := 256) (n1 := 2048) p k) = (m ((c : Thread nD τ).loc main_arg1)) (ix2 (n0 := 8192) (n1 := 2048) R k) :=
    fun k => stBlock_apply m c t (ix2 (n0 := 256) (n1 := 2048) p k) (ix2 (n0 := 8192) (n1 := 2048) R k) hR rfl
  have H2 : ∀ k : Fin 2048, (iblk m c 2 t : Vec Ideal S256x2048 .f32) (ix2 (n0 := 256) (n1 := 2048) q k) = (m ((c : Thread nD τ).loc main_arg2)) (ix2 (n0 := 2048) (n1 := 4096) J (colIn k)) :=
    fun k => gateInBlock_apply m c t q k J hJ
  have H3 : ∀ k : Fin 2048, (iblk m c 3 t : Vec Ideal S256x2048 .f32) (ix2 (n0 := 256) (n1 := 2048) q k) = (m ((c : Thread nD τ).loc main_arg2)) (ix2 (n0 := 2048) (n1 := 4096) J (colSt k)) :=
    fun k => gateStBlock_apply m c t q k J hJ
  have H4 : ∀ k : Fin 2048, (iblk m c 4 t : Vec Ideal S256x2048 .f32) (ix2 (n0 := 256) (n1 := 2048) q k) = (m ((c : Thread nD τ).loc main_arg4)) (ix2 (n0 := 2048) (n1 := 2048) J k) :=
    fun k => candBlock_apply m c t q k J hJ
  have H5 : (iblk m c 5 t : Vec Ideal S1x256 .f32) (ix2 (n0 := 1) (n1 := 256) 0 q) = (m ((c : Thread nD τ).loc main_arg3)) (ix1 (n := 2048) J) :=
    biasBlock_apply m c t q J hJ
  have HT : stateTile (grid0.coords t) (iblk m c 1 t : Vec Ideal S256x2048 .f32) (ix2 (n0 := 256) (n1 := 256) p q) = (m ((c : Thread nD τ).loc main_arg1)) (ix2 (n0 := 8192) (n1 := 2048) R J) :=
    stateTile_apply m c t p q R J hR hJ
  exact preGate_block (m ((c : Thread nD τ).loc main_arg0)) (m ((c : Thread nD τ).loc main_arg1)) (m ((c : Thread nD τ).loc main_arg2)) (m ((c : Thread nD τ).loc main_arg3)) (iblk m c 0 t) (iblk m c 1 t) (iblk m c 2 t) (iblk m c 3 t) (iblk m c 5 t) R J p q H0 H1 H2 H3 H5

/-- What point t writes back through output window 7 is block t of the gate of the argument arrays. -/
theorem flushed7_eq (c : Dev nD) (t : Fin cfg0.N) :
    (dats m 0 c).flushed 7 t = ((cfg0.win 7).blk t).view.read (Elt Ideal) (gate (m ((c : Thread nD τ).loc main_arg0)) (m ((c : Thread nD τ).loc main_arg1)) (m ((c : Thread nD τ).loc main_arg2)) (m ((c : Thread nD τ).loc main_arg3))) := by
  show (cfg0.win 7).cut (grid0.coords t) ((dats m 0 c).after 7 t) = _
  rw [after0_7]
  unfold outsAt0
  dsimp only
  rw [out7_eq]
  funext y
  obtain ⟨p, q, rfl⟩ : ∃ (p q : Fin 256), y = ix2 p q := ⟨y 0, y 1, eq_ix2 y⟩
  show _ = gate (m ((c : Thread nD τ).loc main_arg0)) (m ((c : Thread nD τ).loc main_arg1)) (m ((c : Thread nD τ).loc main_arg2)) (m ((c : Thread nD τ).loc main_arg3)) (((cfg0.win 7).blk t).view.emb (ix2 (n0 := 256) (n1 := 256) p q))
  obtain ⟨R, J, hRJ⟩ : ∃ (R : Fin 8192) (J : Fin 2048), ((cfg0.win 7).blk t).view.emb (ix2 (n0 := 256) (n1 := 256) p q) = ix2 R J :=
    ⟨_, _, eq_ix2 _⟩
  obtain ⟨-, -, -, -, -, -, -, -, -, -, -, -, f0, f1, -⟩ := idx_facts t
  have hR : R.val = win0_6.index t (0 : Fin 2) * 256 + p.val := by
    have e : win0_7.index t (0 : Fin 2) * 256 + 1 * p.val = R.val := congrArg Fin.val (congrFun hRJ (0 : Fin 2))
    rw [f0] at e; omega
  have hJ : J.val = win0_6.index t (1 : Fin 2) * 256 + q.val := by
    have e : win0_7.index t (1 : Fin 2) * 256 + 1 * q.val = J.val := congrArg Fin.val (congrFun hRJ (1 : Fin 2))
    rw [f1] at e; omega
  rw [hRJ]
  have H0 : ∀ k : Fin 2048, (iblk m c 0 t : Vec Ideal S256x2048 .f32) (ix2 (n0 := 256) (n1 := 2048) p k) = (m ((c : Thread nD τ).loc main_arg0)) (ix2 (n0 := 8192) (n1 := 2048) R k) :=
    fun k => inBlock_apply m c t (ix2 (n0 := 256) (n1 := 2048) p k) (ix2 (n0 := 8192) (n1 := 2048) R k) hR rfl
  have H1 : ∀ k : Fin 2048, (iblk m c 1 t : Vec Ideal S256x2048 .f32) (ix2 (n0 := 256) (n1 := 2048) p k) = (m ((c : Thread nD τ).loc main_arg1)) (ix2 (n0 := 8192) (n1 := 2048) R k) :=
    fun k => stBlock_apply m c t (ix2 (n0 := 256) (n1 := 2048) p k) (ix2 (n0 := 8192) (n1 := 2048) R k) hR rfl
  have H2 : ∀ k : Fin 2048, (iblk m c 2 t : Vec Ideal S256x2048 .f32) (ix2 (n0 := 256) (n1 := 2048) q k) = (m ((c : Thread nD τ).loc main_arg2)) (ix2 (n0 := 2048) (n1 := 4096) J (colIn k)) :=
    fun k => gateInBlock_apply m c t q k J hJ
  have H3 : ∀ k : Fin 2048, (iblk m c 3 t : Vec Ideal S256x2048 .f32) (ix2 (n0 := 256) (n1 := 2048) q k) = (m ((c : Thread nD τ).loc main_arg2)) (ix2 (n0 := 2048) (n1 := 4096) J (colSt k)) :=
    fun k => gateStBlock_apply m c t q k J hJ
  have H4 : ∀ k : Fin 2048, (iblk m c 4 t : Vec Ideal S256x2048 .f32) (ix2 (n0 := 256) (n1 := 2048) q k) = (m ((c : Thread nD τ).loc main_arg4)) (ix2 (n0 := 2048) (n1 := 2048) J k) :=
    fun k => candBlock_apply m c t q k J hJ
  have H5 : (iblk m c 5 t : Vec Ideal S1x256 .f32) (ix2 (n0 := 1) (n1 := 256) 0 q) = (m ((c : Thread nD τ).loc main_arg3)) (ix1 (n := 2048) J) :=
    biasBlock_apply m c t q J hJ
  have HT : stateTile (grid0.coords t) (iblk m c 1 t : Vec Ideal S256x2048 .f32) (ix2 (n0 := 256) (n1 := 256) p q) = (m ((c : Thread nD τ).loc main_arg1)) (ix2 (n0 := 8192) (n1 := 2048) R J) :=
    stateTile_apply m c t p q R J hR hJ
  exact gate_block (m ((c : Thread nD τ).loc main_arg0)) (m ((c : Thread nD τ).loc main_arg1)) (m ((c : Thread nD τ).loc main_arg2)) (m ((c : Thread nD τ).loc main_arg3)) (iblk m c 0 t) (iblk m c 1 t) (iblk m c 2 t) (iblk m c 3 t) (iblk m c 5 t) R J p q H0 H1 H2 H3 H5

/-- What point t writes back through output window 8 is block t of the candidate values of the argument arrays. -/
theorem flushed8_eq (c : Dev nD) (t : Fin cfg0.N) :
    (dats m 0 c).flushed 8 t = ((cfg0.win 8).blk t).view.read (Elt Ideal) (values (m ((c : Thread nD τ).loc main_arg0)) (m ((c : Thread nD τ).loc main_arg4))) := by
  show (cfg0.win 8).cut (grid0.coords t) ((dats m 0 c).after 8 t) = _
  rw [after0_8]
  unfold outsAt0
  dsimp only
  rw [out8_eq]
  funext y
  obtain ⟨p, q, rfl⟩ : ∃ (p q : Fin 256), y = ix2 p q := ⟨y 0, y 1, eq_ix2 y⟩
  show _ = values (m ((c : Thread nD τ).loc main_arg0)) (m ((c : Thread nD τ).loc main_arg4)) (((cfg0.win 8).blk t).view.emb (ix2 (n0 := 256) (n1 := 256) p q))
  obtain ⟨R, J, hRJ⟩ : ∃ (R : Fin 8192) (J : Fin 2048), ((cfg0.win 8).blk t).view.emb (ix2 (n0 := 256) (n1 := 256) p q) = ix2 R J :=
    ⟨_, _, eq_ix2 _⟩
  obtain ⟨-, -, -, -, -, -, -, -, -, -, -, -, -, -, f0, f1, -⟩ := idx_facts t
  have hR : R.val = win0_6.index t (0 : Fin 2) * 256 + p.val := by
    have e : win0_8.index t (0 : Fin 2) * 256 + 1 * p.val = R.val := congrArg Fin.val (congrFun hRJ (0 : Fin 2))
    rw [f0] at e; omega
  have hJ : J.val = win0_6.index t (1 : Fin 2) * 256 + q.val := by
    have e : win0_8.index t (1 : Fin 2) * 256 + 1 * q.val = J.val := congrArg Fin.val (congrFun hRJ (1 : Fin 2))
    rw [f1] at e; omega
  rw [hRJ]
  have H0 : ∀ k : Fin 2048, (iblk m c 0 t : Vec Ideal S256x2048 .f32) (ix2 (n0 := 256) (n1 := 2048) p k) = (m ((c : Thread nD τ).loc main_arg0)) (ix2 (n0 := 8192) (n1 := 2048) R k) :=
    fun k => inBlock_apply m c t (ix2 (n0 := 256) (n1 := 2048) p k) (ix2 (n0 := 8192) (n1 := 2048) R k) hR rfl
  have H1 : ∀ k : Fin 2048, (iblk m c 1 t : Vec Ideal S256x2048 .f32) (ix2 (n0 := 256) (n1 := 2048) p k) = (m ((c : Thread nD τ).loc main_arg1)) (ix2 (n0 := 8192) (n1 := 2048) R k) :=
    fun k => stBlock_apply m c t (ix2 (n0 := 256) (n1 := 2048) p k) (ix2 (n0 := 8192) (n1 := 2048) R k) hR rfl
  have H2 : ∀ k : Fin 2048, (iblk m c 2 t : Vec Ideal S256x2048 .f32) (ix2 (n0 := 256) (n1 := 2048) q k) = (m ((c : Thread nD τ).loc main_arg2)) (ix2 (n0 := 2048) (n1 := 4096) J (colIn k)) :=
    fun k => gateInBlock_apply m c t q k J hJ
  have H3 : ∀ k : Fin 2048, (iblk m c 3 t : Vec Ideal S256x2048 .f32) (ix2 (n0 := 256) (n1 := 2048) q k) = (m ((c : Thread nD τ).loc main_arg2)) (ix2 (n0 := 2048) (n1 := 4096) J (colSt k)) :=
    fun k => gateStBlock_apply m c t q k J hJ
  have H4 : ∀ k : Fin 2048, (iblk m c 4 t : Vec Ideal S256x2048 .f32) (ix2 (n0 := 256) (n1 := 2048) q k) = (m ((c : Thread nD τ).loc main_arg4)) (ix2 (n0 := 2048) (n1 := 2048) J k) :=
    fun k => candBlock_apply m c t q k J hJ
  have H5 : (iblk m c 5 t : Vec Ideal S1x256 .f32) (ix2 (n0 := 1) (n1 := 256) 0 q) = (m ((c : Thread nD τ).loc main_arg3)) (ix1 (n := 2048) J) :=
    biasBlock_apply m c t q J hJ
  have HT : stateTile (grid0.coords t) (iblk m c 1 t : Vec Ideal S256x2048 .f32) (ix2 (n0 := 256) (n1 := 256) p q) = (m ((c : Thread nD τ).loc main_arg1)) (ix2 (n0 := 8192) (n1 := 2048) R J) :=
    stateTile_apply m c t p q R J hR hJ
  exact values_block (m ((c : Thread nD τ).loc main_arg0)) (m ((c : Thread nD τ).loc main_arg4)) (iblk m c 0 t) (iblk m c 4 t) R J p q H0 H4

/-- What point t writes back through output window 9 is block t of the mix of the argument arrays. -/
theorem flushed9_eq (c : Dev nD) (t : Fin cfg0.N) :
    (dats m 0 c).flushed 9 t = ((cfg0.win 9).blk t).view.read (Elt Ideal) (mix (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 9).cut (grid0.coords t) ((dats m 0 c).after 9 t) = _
  rw [after0_9]
  unfold outsAt0
  dsimp only
  rw [out9_eq]
  funext y
  obtain ⟨p, q, rfl⟩ : ∃ (p q : Fin 256), y = ix2 p q := ⟨y 0, y 1, eq_ix2 y⟩
  show _ = mix (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb (ix2 (n0 := 256) (n1 := 256) p q))
  obtain ⟨R, J, hRJ⟩ : ∃ (R : Fin 8192) (J : Fin 2048), ((cfg0.win 9).blk t).view.emb (ix2 (n0 := 256) (n1 := 256) p q) = ix2 R J :=
    ⟨_, _, eq_ix2 _⟩
  obtain ⟨-, -, -, -, -, -, -, -, -, -, -, -, -, -, -, -, f0, f1, -⟩ := idx_facts t
  have hR : R.val = win0_6.index t (0 : Fin 2) * 256 + p.val := by
    have e : win0_9.index t (0 : Fin 2) * 256 + 1 * p.val = R.val := congrArg Fin.val (congrFun hRJ (0 : Fin 2))
    rw [f0] at e; omega
  have hJ : J.val = win0_6.index t (1 : Fin 2) * 256 + q.val := by
    have e : win0_9.index t (1 : Fin 2) * 256 + 1 * q.val = J.val := congrArg Fin.val (congrFun hRJ (1 : Fin 2))
    rw [f1] at e; omega
  rw [hRJ]
  have H0 : ∀ k : Fin 2048, (iblk m c 0 t : Vec Ideal S256x2048 .f32) (ix2 (n0 := 256) (n1 := 2048) p k) = (m ((c : Thread nD τ).loc main_arg0)) (ix2 (n0 := 8192) (n1 := 2048) R k) :=
    fun k => inBlock_apply m c t (ix2 (n0 := 256) (n1 := 2048) p k) (ix2 (n0 := 8192) (n1 := 2048) R k) hR rfl
  have H1 : ∀ k : Fin 2048, (iblk m c 1 t : Vec Ideal S256x2048 .f32) (ix2 (n0 := 256) (n1 := 2048) p k) = (m ((c : Thread nD τ).loc main_arg1)) (ix2 (n0 := 8192) (n1 := 2048) R k) :=
    fun k => stBlock_apply m c t (ix2 (n0 := 256) (n1 := 2048) p k) (ix2 (n0 := 8192) (n1 := 2048) R k) hR rfl
  have H2 : ∀ k : Fin 2048, (iblk m c 2 t : Vec Ideal S256x2048 .f32) (ix2 (n0 := 256) (n1 := 2048) q k) = (m ((c : Thread nD τ).loc main_arg2)) (ix2 (n0 := 2048) (n1 := 4096) J (colIn k)) :=
    fun k => gateInBlock_apply m c t q k J hJ
  have H3 : ∀ k : Fin 2048, (iblk m c 3 t : Vec Ideal S256x2048 .f32) (ix2 (n0 := 256) (n1 := 2048) q k) = (m ((c : Thread nD τ).loc main_arg2)) (ix2 (n0 := 2048) (n1 := 4096) J (colSt k)) :=
    fun k => gateStBlock_apply m c t q k J hJ
  have H4 : ∀ k : Fin 2048, (iblk m c 4 t : Vec Ideal S256x2048 .f32) (ix2 (n0 := 256) (n1 := 2048) q k) = (m ((c : Thread nD τ).loc main_arg4)) (ix2 (n0 := 2048) (n1 := 2048) J k) :=
    fun k => candBlock_apply m c t q k J hJ
  have H5 : (iblk m c 5 t : Vec Ideal S1x256 .f32) (ix2 (n0 := 1) (n1 := 256) 0 q) = (m ((c : Thread nD τ).loc main_arg3)) (ix1 (n := 2048) J) :=
    biasBlock_apply m c t q J hJ
  have HT : stateTile (grid0.coords t) (iblk m c 1 t : Vec Ideal S256x2048 .f32) (ix2 (n0 := 256) (n1 := 256) p q) = (m ((c : Thread nD τ).loc main_arg1)) (ix2 (n0 := 8192) (n1 := 2048) R J) :=
    stateTile_apply m c t p q R J hR hJ
  exact mix_block (m ((c : Thread nD τ).loc main_arg0)) (m ((c : Thread nD τ).loc main_arg1)) (m ((c : Thread nD τ).loc main_arg2)) (m ((c : Thread nD τ).loc main_arg3)) (m ((c : Thread nD τ).loc main_arg4)) (iblk m c 0 t) (iblk m c 1 t) (iblk m c 2 t) (iblk m c 3 t) (iblk m c 4 t) (iblk m c 5 t) (stateTile (grid0.coords t) (iblk m c 1 t)) R J p q H0 H1 H2 H3 H4 H5 HT

/-- What point t writes back through output window 10 is block t of the new state of the argument arrays. -/
theorem flushed10_eq (c : Dev nD) (t : Fin cfg0.N) :
    (dats m 0 c).flushed 10 t = ((cfg0.win 10).blk t).view.read (Elt Ideal) (newState (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 10).cut (grid0.coords t) ((dats m 0 c).after 10 t) = _
  rw [after0_10]
  unfold outsAt0
  dsimp only
  rw [out10_eq]
  funext y
  obtain ⟨p, q, rfl⟩ : ∃ (p q : Fin 256), y = ix2 p q := ⟨y 0, y 1, eq_ix2 y⟩
  show _ = newState (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb (ix2 (n0 := 256) (n1 := 256) p q))
  obtain ⟨R, J, hRJ⟩ : ∃ (R : Fin 8192) (J : Fin 2048), ((cfg0.win 10).blk t).view.emb (ix2 (n0 := 256) (n1 := 256) p q) = ix2 R J :=
    ⟨_, _, eq_ix2 _⟩
  obtain ⟨-, -, -, -, -, -, -, -, -, -, -, -, -, -, -, -, -, -, f0, f1, -⟩ := idx_facts t
  have hR : R.val = win0_6.index t (0 : Fin 2) * 256 + p.val := by
    have e : win0_10.index t (0 : Fin 2) * 256 + 1 * p.val = R.val := congrArg Fin.val (congrFun hRJ (0 : Fin 2))
    rw [f0] at e; omega
  have hJ : J.val = win0_6.index t (1 : Fin 2) * 256 + q.val := by
    have e : win0_10.index t (1 : Fin 2) * 256 + 1 * q.val = J.val := congrArg Fin.val (congrFun hRJ (1 : Fin 2))
    rw [f1] at e; omega
  rw [hRJ]
  have H0 : ∀ k : Fin 2048, (iblk m c 0 t : Vec Ideal S256x2048 .f32) (ix2 (n0 := 256) (n1 := 2048) p k) = (m ((c : Thread nD τ).loc main_arg0)) (ix2 (n0 := 8192) (n1 := 2048) R k) :=
    fun k => inBlock_apply m c t (ix2 (n0 := 256) (n1 := 2048) p k) (ix2 (n0 := 8192) (n1 := 2048) R k) hR rfl
  have H1 : ∀ k : Fin 2048, (iblk m c 1 t : Vec Ideal S256x2048 .f32) (ix2 (n0 := 256) (n1 := 2048) p k) = (m ((c : Thread nD τ).loc main_arg1)) (ix2 (n0 := 8192) (n1 := 2048) R k) :=
    fun k => stBlock_apply m c t (ix2 (n0 := 256) (n1 := 2048) p k) (ix2 (n0 := 8192) (n1 := 2048) R k) hR rfl
  have H2 : ∀ k : Fin 2048, (iblk m c 2 t : Vec Ideal S256x2048 .f32) (ix2 (n0 := 256) (n1 := 2048) q k) = (m ((c : Thread nD τ).loc main_arg2)) (ix2 (n0 := 2048) (n1 := 4096) J (colIn k)) :=
    fun k => gateInBlock_apply m c t q k J hJ
  have H3 : ∀ k : Fin 2048, (iblk m c 3 t : Vec Ideal S256x2048 .f32) (ix2 (n0 := 256) (n1 := 2048) q k) = (m ((c : Thread nD τ).loc main_arg2)) (ix2 (n0 := 2048) (n1 := 4096) J (colSt k)) :=
    fun k => gateStBlock_apply m c t q k J hJ
  have H4 : ∀ k : Fin 2048, (iblk m c 4 t : Vec Ideal S256x2048 .f32) (ix2 (n0 := 256) (n1 := 2048) q k) = (m ((c : Thread nD τ).loc main_arg4)) (ix2 (n0 := 2048) (n1 := 2048) J k) :=
    fun k => candBlock_apply m c t q k J hJ
  have H5 : (iblk m c 5 t : Vec Ideal S1x256 .f32) (ix2 (n0 := 1) (n1 := 256) 0 q) = (m ((c : Thread nD τ).loc main_arg3)) (ix1 (n := 2048) J) :=
    biasBlock_apply m c t q J hJ
  have HT : stateTile (grid0.coords t) (iblk m c 1 t : Vec Ideal S256x2048 .f32) (ix2 (n0 := 256) (n1 := 256) p q) = (m ((c : Thread nD τ).loc main_arg1)) (ix2 (n0 := 8192) (n1 := 2048) R J) :=
    stateTile_apply m c t p q R J hR hJ
  exact newState_block (m ((c : Thread nD τ).loc main_arg0)) (m ((c : Thread nD τ).loc main_arg1)) (m ((c : Thread nD τ).loc main_arg2)) (m ((c : Thread nD τ).loc main_arg3)) (m ((c : Thread nD τ).loc main_arg4)) (iblk m c 0 t) (iblk m c 1 t) (iblk m c 2 t) (iblk m c 3 t) (iblk m c 4 t) (iblk m c 5 t) (stateTile (grid0.coords t) (iblk m c 1 t)) R J p q H0 H1 H2 H3 H4 H5 HT

end Cert.KernelIdeal.Cell

end
-- ==== Proof.Final.lean ====
/-
  The arrays after the run. The 256 points' output tiles are the 32 x 8 blocks of 256 x 256 entries of an [8192, 2048]
  array, so entry (r, j) lies in the tile of the point with block index (r / 256, j / 256): the five result arrays end
  holding the five functions of the specification. After the grid one more line joins the input and the state side by
  side; it reads the two argument arrays, which the grid leaves as it found them.
-/
import proofs.«170688_j13915694039466_2_alg».proof.Proof.Gen.KernelIdeal.Frame
import Idealize.ShloMosaic.Lib.Pipeline.Value
import Idealize.ShloMosaic.Lib.Tactic
import proofs.«170688_j13915694039466_2_alg».proof.Proof.Flushed
import Idealize.ShloMosaic.Lib.StableHlo.Run

noncomputable section

open Idealize.ShloMosaic Idealize.ShloMosaic.TcCoe Idealize.SL.Sem
open Idealize.ShloMosaic.Pipeline (Dat)

namespace Cert.KernelIdeal.Cell

open Cert.KernelIdeal Cert.KernelIdeal.Gen Idealize.ShloMosaic.ValueIdx Cert.GatedCell

variable (m : (ℓ : Loc nD τ sig) → Buf (Elt Ideal) ℓ) (ρ : Dev nD → PrngReg)

/-- An entry of the array is in point t's block of output window 6 iff each coordinate is in the block's range. -/
theorem mem_blk6 (t : Fin cfg0.N) (i : S8192x2048.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v3_0).slice (win0_6.rect t)).set ↔ _
  rw [View.set_slice_whole, Rect.mem_set_unit]
  exact Iff.rfl

/-- Every entry (r, j) is in the block of the point whose output tile is (r / 256, j / 256). -/
theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_6.index t (0 : Fin 2) = (i 0).val / 256 := congrFun ht 0
  have q1 : win0_6.index t (1 : Fin 2) = (i 1).val / 256 := congrFun ht 1
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 256 ≤ (i 1).val ∧ (i 1).val < win0_6.index t (1 : Fin 2) * 256 + 256; omega

/-- So the array behind output window 6 ends holding the gate's pre-activation of the argument arrays. -/
theorem final6 (c : Dev nD) : (dats m 0 c).arrAt 6 cfg0.N = preGate (m ((c : Thread nD τ).loc main_arg0)) (m ((c : Thread nD τ).loc main_arg1)) (m ((c : Thread nD τ).loc main_arg2)) (m ((c : Thread nD τ).loc main_arg3)) :=
  (dats m 0 c).arrAt_eq_of_cover 6 (preGate (m ((c : Thread nD τ).loc main_arg0)) (m ((c : Thread nD τ).loc main_arg1)) (m ((c : Thread nD τ).loc main_arg2)) (m ((c : Thread nD τ).loc main_arg3))) (fun t _ => flushed6_eq m c t) cover6

/-- An entry of the array is in point t's block of output window 7 iff each coordinate is in the block's range. -/
theorem mem_blk7 (t : Fin cfg0.N) (i : S8192x2048.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v3_1).slice (win0_7.rect t)).set ↔ _
  rw [View.set_slice_whole, Rect.mem_set_unit]
  exact Iff.rfl

/-- Every entry (r, j) is in the block of the point whose output tile is (r / 256, j / 256). -/
theorem cover7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_6.index t (0 : Fin 2) = (i 0).val / 256 := congrFun ht 0
  have q1 : win0_6.index t (1 : Fin 2) = (i 1).val / 256 := congrFun ht 1
  obtain ⟨-, -, -, -, -, -, -, -, -, -, -, -, f0, f1, -⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [f0]; omega
  | ⟨1, _⟩ => show win0_7.index t (1 : Fin 2) * 256 ≤ (i 1).val ∧ (i 1).val < win0_7.index t (1 : Fin 2) * 256 + 256; rw [f1]; omega

/-- So the array behind output window 7 ends holding the gate of the argument arrays. -/
theorem final7 (c : Dev nD) : (dats m 0 c).arrAt 7 cfg0.N = gate (m ((c : Thread nD τ).loc main_arg0)) (m ((c : Thread nD τ).loc main_arg1)) (m ((c : Thread nD τ).loc main_arg2)) (m ((c : Thread nD τ).loc main_arg3)) :=
  (dats m 0 c).arrAt_eq_of_cover 7 (gate (m ((c : Thread nD τ).loc main_arg0)) (m ((c : Thread nD τ).loc main_arg1)) (m ((c : Thread nD τ).loc main_arg2)) (m ((c : Thread nD τ).loc main_arg3))) (fun t _ => flushed7_eq m c t) cover7

/-- An entry of the array is in point t's block of output window 8 iff each coordinate is in the block's range. -/
theorem mem_blk8 (t : Fin cfg0.N) (i : S8192x2048.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v3_2).slice (win0_8.rect t)).set ↔ _
  rw [View.set_slice_whole, Rect.mem_set_unit]
  exact Iff.rfl

/-- Every entry (r, j) is in the block of the point whose output tile is (r / 256, j / 256). -/
theorem cover8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_6.index t (0 : Fin 2) = (i 0).val / 256 := congrFun ht 0
  have q1 : win0_6.index t (1 : Fin 2) = (i 1).val / 256 := congrFun ht 1
  obtain ⟨-, -, -, -, -, -, -, -, -, -, -, -, -, -, f0, f1, -⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; rw [f0]; omega
  | ⟨1, _⟩ => show win0_8.index t (1 : Fin 2) * 256 ≤ (i 1).val ∧ (i 1).val < win0_8.index t (1 : Fin 2) * 256 + 256; rw [f1]; omega

/-- So the array behind output window 8 ends holding the candidate values of the argument arrays. -/
theorem final8 (c : Dev nD) : (dats m 0 c).arrAt 8 cfg0.N = values (m ((c : Thread nD τ).loc main_arg0)) (m ((c : Thread nD τ).loc main_arg4)) :=
  (dats m 0 c).arrAt_eq_of_cover 8 (values (m ((c : Thread nD τ).loc main_arg0)) (m ((c : Thread nD τ).loc main_arg4))) (fun t _ => flushed8_eq m c t) cover8

/-- An entry of the array is in point t's block of output window 9 iff each coordinate is in the block's range. -/
theorem mem_blk9 (t : Fin cfg0.N) (i : S8192x2048.Idx) :
    i ∈ ((cfg0.win 9).blk t).view.set ↔ ∀ a : Fin 2, win0_9.index t a * S256x256.size a ≤ (i a).val ∧ (i a).val < win0_9.index t a * S256x256.size a + S256x256.size a := by
  show i ∈ ((View.whole main_v3_3).slice (win0_9.rect t)).set ↔ _
  rw [View.set_slice_whole, Rect.mem_set_unit]
  exact Iff.rfl

/-- Every entry (r, j) is in the block of the point whose output tile is (r / 256, j / 256). -/
theorem cover9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_6.index t (0 : Fin 2) = (i 0).val / 256 := congrFun ht 0
  have q1 : win0_6.index t (1 : Fin 2) = (i 1).val / 256 := congrFun ht 1
  obtain ⟨-, -, -, -, -, -, -, -, -, -, -, -, -, -, -, -, f0, f1, -⟩ := idx_facts t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; rw [f0]; omega
  | ⟨1, _⟩ => show win0_9.index t (1 : Fin 2) * 256 ≤ (i 1).val ∧ (i 1).val < win0_9.index t (1 : Fin 2) * 256 + 256; rw [f1]; omega

/-- So the array behind output window 9 ends holding the mix of the argument arrays. -/
theorem final9 (c : Dev nD) : (dats m 0 c).arrAt 9 cfg0.N = mix (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 9 (mix (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed9_eq m c t) cover9

/-- An entry of the array is in point t's block of output window 10 iff each coordinate is in the block's range. -/
theorem mem_blk10 (t : Fin cfg0.N) (i : S8192x2048.Idx) :
    i ∈ ((cfg0.win 10).blk t).view.set ↔ ∀ a : Fin 2, win0_10.index t a * S256x256.size a ≤ (i a).val ∧ (i a).val < win0_10.index t a * S256x256.size a + S256x256.size a := by
  show i ∈ ((View.whole main_v3_4).slice (win0_10.rect t)).set ↔ _
  rw [View.set_slice_whole, Rect.mem_set_unit]
  exact Iff.rfl

/-- Every entry (r, j) is in the block of the point whose output tile is (r / 256, j / 256). -/
theorem cover10 (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_6.index t (0 : Fin 2) = (i 0).val / 256 := congrFun ht 0
  have q1 : win0_6.index t (1 : Fin 2) = (i 1).val / 256 := congrFun ht 1
  obtain ⟨-, -, -, -, -, -, -, -, -, -, -, -, -, -, -, -, -, -, f0, f1, -⟩ := idx_facts t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; rw [f0]; omega
  | ⟨1, _⟩ => show win0_10.index t (1 : Fin 2) * 256 ≤ (i 1).val ∧ (i 1).val < win0_10.index t (1 : Fin 2) * 256 + 256; rw [f1]; omega

/-- So the array behind output window 10 ends holding the new state of the argument arrays. -/
theorem final10 (c : Dev nD) : (dats m 0 c).arrAt 10 cfg0.N = newState (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 10 (newState (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed10_eq m c t) cover10

/-- The joined array [x | h] the last line writes. -/
theorem tail_joined (c : Dev nD) :
    Pipeline.afterTail₀ cfgs (dats m) 0 (V0 m) [hostOps1] c main_v4 = concatenate S8192x4096 1 [⟨S8192x2048, (m ((c : Thread nD τ).loc main_arg0))⟩, ⟨S8192x2048, (m ((c : Thread nD τ).loc main_arg1))⟩] concatenates_S8192x2048_S8192x2048_S8192x4096_d1 := by
  unfold Pipeline.afterTail₀
  show StableHlo.after hostOps1 _ (Proc.devRef .tc main_v4) = _
  after_results
  have e0 : Pipeline.withArrays (cfgs 0).spec c (V0 m c) (fun w => (dats m 0 c).arrAt w (cfgs 0).N) (Proc.devRef .tc main_arg0) = (m ((c : Thread nD τ).loc main_arg0)) :=
    (Pipeline.withArrays_arr spec0 launch0.win.arr_inj c _ _ 0).trans
      (((dats m 0 c).arrAt_in 0 rfl _).trans ((A_eq m c 0).trans (V_main_arg0 m c)))
  have e1 : Pipeline.withArrays (cfgs 0).spec c (V0 m c) (fun w => (dats m 0 c).arrAt w (cfgs 0).N) (Proc.devRef .tc main_arg1) = (m ((c : Thread nD τ).loc main_arg1)) :=
    (Pipeline.withArrays_arr spec0 launch0.win.arr_inj c _ _ 1).trans
      (((dats m 0 c).arrAt_in 1 rfl _).trans ((A_eq m c 1).trans (V_main_arg1 m c)))
  rw [e0, e1]

/-- The run, read: every weakly fair execution ends with the five result arrays at the specification's functions of the
    argument arrays, the joined array at [x | h], and the arguments unchanged. -/
theorem run : θ_run defs (onTc (τ := τ) (main (F := Ideal))) ⟨m, fun _ => 0, ρ⟩ fun r => ∀ c : Dev nD,
      r.2.mem ((c : Thread nD τ).loc main_v3_4) = newState (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v4) = concatenate S8192x4096 1 [⟨S8192x2048, (m ((c : Thread nD τ).loc main_arg0))⟩, ⟨S8192x2048, (m ((c : Thread nD τ).loc main_arg1))⟩] concatenates_S8192x2048_S8192x2048_S8192x4096_d1
      ∧ r.2.mem ((c : Thread nD τ).loc main_v3_0) = preGate (m ((c : Thread nD τ).loc main_arg0)) (m ((c : Thread nD τ).loc main_arg1)) (m ((c : Thread nD τ).loc main_arg2)) (m ((c : Thread nD τ).loc main_arg3))
      ∧ r.2.mem ((c : Thread nD τ).loc main_v3_1) = gate (m ((c : Thread nD τ).loc main_arg0)) (m ((c : Thread nD τ).loc main_arg1)) (m ((c : Thread nD τ).loc main_arg2)) (m ((c : Thread nD τ).loc main_arg3))
      ∧ r.2.mem ((c : Thread nD τ).loc main_v3_2) = values (m ((c : Thread nD τ).loc main_arg0)) (m ((c : Thread nD τ).loc main_arg4))
      ∧ r.2.mem ((c : Thread nD τ).loc main_v3_3) = mix (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 10).trans (final10 m c),
      ((h c).2 main_v4 (Pipeline.mem_restRefs_of main_v4 (by decide) (by decide))).trans (tail_joined m c),
      ((h c).1 6).trans (final6 m c),
      ((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Cell

end
-- ==== Proof.RefIsSpec.lean ====
/-
  The reference computes the five functions of the specification. Its gate pre-activation contracts the joined array
  [x | h] (4096 columns) against a whole row of W; read at (r, j) that single sum splits into its first 2048 terms, where
  the joined array is x, and its last 2048 terms, where it is h — the two half-contractions of the specification. The bias
  reaches (r, j) through two broadcasts that keep only the column j. Everything after that is pointwise and is the
  specification's own chain: clip to [0, 1], tanh of the second contraction, the convex mix, the clip at zero.
-/
import proofs.«170688_j13915694039466_2_alg».proof.Proof.Gen.ReferenceIdeal.Read
import proofs.«170688_j13915694039466_2_alg».proof.Proof.Spec
import Idealize.ShloMosaic.Lib.Pipeline.Value
import Idealize.ShloMosaic.Lib.ValueIdx

noncomputable section

open Idealize.ShloMosaic Idealize.ShloMosaic.TcCoe Idealize.SL.Sem

namespace Cert.ReferenceIdeal.RefValue

open Cert.ReferenceIdeal Cert.ReferenceIdeal.Gen Cert.ReferenceIdeal.Read Cert.GatedCell Idealize.ShloMosaic.ValueIdx

variable (x0 x1 : (⟨S8192x2048, .f32⟩ : BufTy).Contents (Elt Ideal)) (x2 : (⟨S2048x4096, .f32⟩ : BufTy).Contents (Elt Ideal))
  (x3 : (⟨S2048, .f32⟩ : BufTy).Contents (Elt Ideal)) (x4 : (⟨S2048x2048, .f32⟩ : BufTy).Contents (Elt Ideal))

/-- In its first 2048 columns the joined array is the input. -/
theorem joined_left (r : Fin 8192) (k : Fin 2048) :
    val_main_v0 (F := Ideal) x0 x1 (ix2 (n0 := 8192) (n1 := 4096) r (colIn k)) = x0 (ix2 (n0 := 8192) (n1 := 2048) r k) := by
  unfold val_main_v0
  exact concatenate_pair_apply_left (t := S8192x4096) (s₁ := S8192x2048) (s₂ := S8192x2048) (1 : Fin 2) x0 x1
    concatenates_S8192x2048_S8192x2048_S8192x4096_d1 (ix2 (n0 := 8192) (n1 := 4096) r (colIn k)) rfl
    (ix2 (n0 := 8192) (n1 := 2048) r k) (fun b => match b with | ⟨0, _⟩ => rfl | ⟨1, _⟩ => rfl)

/-- In its last 2048 columns it is the state. -/
theorem joined_right (r : Fin 8192) (k : Fin 2048) :
    val_main_v0 (F := Ideal) x0 x1 (ix2 (n0 := 8192) (n1 := 4096) r (colSt k)) = x1 (ix2 (n0 := 8192) (n1 := 2048) r k) := by
  unfold val_main_v0
  refine concatenate_pair_apply_right (t := S8192x4096) (s₁ := S8192x2048) (s₂ := S8192x2048) (1 : Fin 2) x0 x1
    concatenates_S8192x2048_S8192x2048_S8192x4096_d1 (ix2 (n0 := 8192) (n1 := 4096) r (colSt k)) rfl rfl
    (ix2 (n0 := 8192) (n1 := 2048) r k) ?_ ?_
  · intro b hb
    match b with
    | ⟨0, _⟩ => rfl
    | ⟨1, _⟩ => exact absurd rfl hb
  · show k.val + 2048 = 2048 + k.val
    omega

theorem lidx_v1 (r : Fin 8192) (j : Fin 2048) (k : Fin 4096) :
    lidx_main_v1 (ix2 (n0 := 8192) (n1 := 2048) r j) k = ix2 (n0 := 8192) (n1 := 4096) r k :=
  funext fun a => Fin.ext (by match a with | ⟨0, _⟩ => rfl | ⟨1, _⟩ => rfl)
theorem ridx_v1 (r : Fin 8192) (j : Fin 2048) (k : Fin 4096) :
    ridx_main_v1 (ix2 (n0 := 8192) (n1 := 2048) r j) k = ix2 (n0 := 2048) (n1 := 4096) j k :=
  funext fun a => Fin.ext (by match a with | ⟨0, _⟩ => rfl | ⟨1, _⟩ => rfl)
theorem lidx_v6 (r : Fin 8192) (j : Fin 2048) (k : Fin 2048) :
    lidx_main_v6 (ix2 (n0 := 8192) (n1 := 2048) r j) k = ix2 (n0 := 8192) (n1 := 2048) r k :=
  funext fun a => Fin.ext (by match a with | ⟨0, _⟩ => rfl | ⟨1, _⟩ => rfl)
theorem ridx_v6 (r : Fin 8192) (j : Fin 2048) (k : Fin 2048) :
    ridx_main_v6 (ix2 (n0 := 8192) (n1 := 2048) r j) k = ix2 (n0 := 2048) (n1 := 2048) j k :=
  funext fun a => Fin.ext (by match a with | ⟨0, _⟩ => rfl | ⟨1, _⟩ => rfl)
theorem bias_idx (r : Fin 8192) (j : Fin 2048) :
    idx_main_v2 (idx_main_v3 (ix2 (n0 := 8192) (n1 := 2048) r j)) = ix1 (n := 2048) j :=
  funext fun a => Fin.ext (by match a with | ⟨0, _⟩ => rfl)

/-- The reference's gate pre-activation is the specification's. -/
theorem preGate_eq : val_main_v4 (F := Ideal) x0 x1 x2 x3 = preGate x0 x1 x2 x3 := by
  funext i
  obtain ⟨r, j, rfl⟩ : ∃ (r : Fin 8192) (j : Fin 2048), i = ix2 r j := ⟨i 0, i 1, eq_ix2 i⟩
  rw [val_main_v4_apply, val_main_v1_apply, val_main_v3_apply, val_main_v2_apply, bias_idx, sum_halves]
  simp only [lidx_v1, ridx_v1, joined_left, joined_right]
  rfl

/-- Its gate is the specification's. -/
theorem gate_eq : val_main_v5 (F := Ideal) x0 x1 x2 x3 = gate x0 x1 x2 x3 := by
  funext i
  rw [val_main_v5_apply, val_main_call0_v4_apply, val_main_call0_v3_apply, val_main_cst_0_apply, val_main_call0_v2_apply,
    val_main_call0_v1_apply, val_main_call0_v0_apply, val_main_cst_apply, preGate_eq]
  rfl

/-- Its candidate values are the specification's. -/
theorem values_eq : val_main_v7 (F := Ideal) x0 x4 = values x0 x4 := by
  funext i
  obtain ⟨r, j, rfl⟩ : ∃ (r : Fin 8192) (j : Fin 2048), i = ix2 r j := ⟨i 0, i 1, eq_ix2 i⟩
  rw [val_main_v7_apply, val_main_v6_apply]
  simp only [lidx_v6, ridx_v6]
  rfl

/-- Its mix is the specification's. -/
theorem mix_eq : val_main_v12 (F := Ideal) x0 x1 x2 x3 x4 = mix x0 x1 x2 x3 x4 := by
  funext i
  rw [val_main_v12_apply, val_main_v10_apply, val_main_v9_apply, val_main_v8_apply, val_main_cst_1_apply, val_main_v11_apply,
    gate_eq, values_eq]
  rfl

/-- Its new state is the specification's. -/
theorem newState_eq : val_main_v13 (F := Ideal) x0 x1 x2 x3 x4 = newState x0 x1 x2 x3 x4 := by
  funext i
  rw [val_main_v13_apply, val_main_call1_v0_apply, val_main_call1_cst_apply, mix_eq]
  rfl

end Cert.ReferenceIdeal.RefValue

end
-- ==== Proof.lean ====
/-
  The gated recurrent cell, kernel against reference, over the extended reals.

  Both programs compute, from the input x, the state h, the gate weights W = [W_x | W_h], the gate bias b and the
  candidate weights U:   p = x W_x^T + h W_h^T + b,   g = clip(p, 0, 1),   v = tanh(x U^T),   y = h (1 - g) + v g,
  z = max(y, 0), and the joined array [x | h]. The kernel cuts W into its two column halves, tiles the [8192, 2048]
  results into 256 x 256 blocks over an 8 x 32 grid, and forms p from two contractions of length 2048; the reference
  contracts the joined array [x | h] against whole rows of W, one contraction of length 4096. The two agree because a
  sum over 4096 terms is the sum of its two halves — associativity and commutativity of addition only, so no
  finiteness of the inputs is used; everything downstream of p and of x U^T is the same pointwise chain on both sides.
  The idealization rewrote nothing, so the kernel's idealization is its own text read over the extended reals.
-/
import proofs.«170688_j13915694039466_2_alg».proof.Defs
import proofs.«170688_j13915694039466_2_alg».proof.Proof.Gen.Kernel
import proofs.«170688_j13915694039466_2_alg».proof.Proof.Gen.Kernel.Frame
import proofs.«170688_j13915694039466_2_alg».proof.Proof.Gen.KernelIdeal
import proofs.«170688_j13915694039466_2_alg».proof.Proof.Gen.KernelIdeal.Frame
import proofs.«170688_j13915694039466_2_alg».proof.Proof.Gen.ReferenceIdeal
import proofs.«170688_j13915694039466_2_alg».proof.Proof.Gen.ReferenceIdeal.Run
import proofs.«170688_j13915694039466_2_alg».proof.Proof.Gen.ReferenceIdeal.Read
import proofs.«170688_j13915694039466_2_alg».proof.Proof.Gen.Pre_finite_inputs
import proofs.«170688_j13915694039466_2_alg».proof.Proof.Final
import proofs.«170688_j13915694039466_2_alg».proof.Proof.RefIsSpec
import Idealize.ShloMosaic.Adequacy
import Idealize.ShloMosaic.Init

noncomputable section

namespace Cert.Proof

open Idealize.ShloMosaic Idealize.ShloMosaic.TcCoe Idealize.SL.Sem Cert.GatedCell

/-- The kernel as printed runs to completion and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- And the reference: its run with the results dropped. -/
theorem frame_ri : Cert.frame_ReferenceIdeal := fun m ρ _ =>
  (θ_run Cert.ReferenceIdeal.defs _ _).mono (fun _ h c => (h c).2.2.2.2.2.2)
    (Cert.ReferenceIdeal.Value.run (F := Ideal) m ρ)

/-- Nothing was rewritten when the kernel was idealized. -/
theorem preserves : Cert.preserves_Kernel_KernelIdeal := trivial

/-- From memories that agree on the five arguments both programs end with the same six arrays: the five functions of the
    specification and the joined array. -/
theorem algebraic : Cert.algebraic_KernelIdeal_ReferenceIdeal := by
  intro m ρ m' ρ' _ hagree
  refine ⟨fun c => newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => concatenate Cert.KernelIdeal.S8192x4096 1 [⟨Cert.KernelIdeal.S8192x2048, (m ((c.tc : Thread Cert.KernelIdeal.nD Cert.KernelIdeal.τ).loc Cert.KernelIdeal.main_arg0))⟩, ⟨Cert.KernelIdeal.S8192x2048, (m ((c.tc : Thread Cert.KernelIdeal.nD Cert.KernelIdeal.τ).loc Cert.KernelIdeal.main_arg1))⟩] Cert.KernelIdeal.Facts₀.concatenates_S8192x2048_S8192x2048_S8192x4096_d1,
    fun c => preGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => gate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => values (m ((c.tc : Thread Cert.KernelIdeal.nD Cert.KernelIdeal.τ).loc Cert.KernelIdeal.main_arg0)) (m ((c.tc : Thread Cert.KernelIdeal.nD Cert.KernelIdeal.τ).loc Cert.KernelIdeal.main_arg4)),
    fun c => mix (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Cell.run m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨r0, r1, r2, r3, r4, r5, k⟩ := h c
  refine ⟨r0.trans ?_, r1.trans ?_, r2.trans ?_, r3.trans ?_, r4.trans ?_, r5.trans ?_, k⟩
  · rw [Cert.ReferenceIdeal.Read.val_main_v13_eq, Cert.ReferenceIdeal.RefValue.newState_eq, a0, a1, a2, a3, a4]
  · rw [a0, a1]
  · rw [Cert.ReferenceIdeal.Read.val_main_v4_eq, Cert.ReferenceIdeal.RefValue.preGate_eq, a0, a1, a2, a3]
  · rw [Cert.ReferenceIdeal.Read.val_main_v5_eq, Cert.ReferenceIdeal.RefValue.gate_eq, a0, a1, a2, a3]
  · rw [Cert.ReferenceIdeal.Read.val_main_v7_eq, Cert.ReferenceIdeal.RefValue.values_eq, a0, a4]
  · rw [Cert.ReferenceIdeal.Read.val_main_v12_eq, Cert.ReferenceIdeal.RefValue.mix_eq, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
